-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S256x128 : Shape := ⟨2, ![256, 128]⟩
abbrev S2x600000 : Shape := ⟨2, ![2, 600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg4 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : FVec F S128x128 .f32) (main_arg2 : FVec F S128 .f32) (main_arg3 : FVec F S256x128 .f32) (main_arg4 : FVec F S128 .f32) (main_arg5 : IVec S2x600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_v13 main_v16
-- ==== Kernel.lean ====
abbrev S50000x128 : Shape := ⟨2, ![50000, 128]⟩
abbrev S128x128 : Shape := ⟨2, ![128, 128]⟩
abbrev S128 : Shape := ⟨1, ![128]⟩
abbrev S256x128 : Shape := ⟨2, ![256, 128]⟩
abbrev S2x600000 : Shape := ⟨2, ![2, 600000]⟩
abbrev S1x600000 : Shape := ⟨2, ![1, 600000]⟩
abbrev S600000 : Shape := ⟨1, ![600000]⟩
abbrev S_ : Shape := ⟨0, ![]⟩
abbrev S606208 : Shape := ⟨1, ![606208]⟩
abbrev S606208x1 : Shape := ⟨2, ![606208, 1]⟩
abbrev S606208x128 : Shape := ⟨2, ![606208, 128]⟩
abbrev S8192x128 : Shape := ⟨2, ![8192, 128]⟩
abbrev S1x128 : Shape := ⟨2, ![1, 128]⟩
abbrev S5000x128 : Shape := ⟨2, ![5000, 128]⟩

abbrev nBuf : Space → Nat
  | .hbm => 51
  | .vmem => 17
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S256x128, .f32⟩
  | .hbm, ⟨4, _⟩ => ⟨S128, .f32⟩
  | .hbm, ⟨5, _⟩ => ⟨S2x600000, .i32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S_, .i32⟩
  | .hbm, ⟨11, _⟩ => ⟨S_, .i32⟩
  | .hbm, ⟨12, _⟩ => ⟨S606208, .i32⟩
  | .hbm, ⟨13, _⟩ => ⟨S_, .i32⟩
  | .hbm, ⟨14, _⟩ => ⟨S_, .i32⟩
  | .hbm, ⟨15, _⟩ => ⟨S606208, .i32⟩
  | .hbm, ⟨16, _⟩ => ⟨S_, .i32⟩
  | .hbm, ⟨17, _⟩ => ⟨S_, .i32⟩
  | .hbm, ⟨18, _⟩ => ⟨S606208, .i32⟩
  | .hbm, ⟨19, _⟩ => ⟨S50000x128, .bf16⟩
  | .hbm, ⟨20, _⟩ => ⟨S_, .i32⟩
  | .hbm, ⟨21, _⟩ => ⟨S606208, .i32⟩
  | .hbm, ⟨22, _⟩ => ⟨S606208, .i1⟩
  | .hbm, ⟨23, _⟩ => ⟨S_, .i32⟩
  | .hbm, ⟨24, _⟩ => ⟨S606208, .i32⟩
  | .hbm, ⟨25, _⟩ => ⟨S606208, .i32⟩
  | .hbm, ⟨26, _⟩ => ⟨S606208, .i32⟩
  | .hbm, ⟨27, _⟩ => ⟨S606208x1, .i32⟩
  | .hbm, ⟨28, _⟩ => ⟨S606208x128, .bf16⟩
  | .hbm, ⟨29, _⟩ => ⟨S_, .i32⟩
  | .hbm, ⟨30, _⟩ => ⟨S606208, .i32⟩
  | .hbm, ⟨31, _⟩ => ⟨S606208, .i1⟩
  | .hbm, ⟨32, _⟩ => ⟨S_, .i32⟩
  | .hbm, ⟨33, _⟩ => ⟨S606208, .i32⟩
  | .hbm, ⟨34, _⟩ => ⟨S606208, .i32⟩
  | .hbm, ⟨35, _⟩ => ⟨S606208, .i32⟩
  | .hbm, ⟨36, _⟩ => ⟨S606208x1, .i32⟩
  | .hbm, ⟨37, _⟩ => ⟨S606208x128, .bf16⟩
  | .hbm, ⟨38, _⟩ => ⟨S128x128, .f32⟩
  | .hbm, ⟨39, _⟩ => ⟨S128x128, .f32⟩
  | .hbm, ⟨40, _⟩ => ⟨S606208x128, .f32⟩
  | .hbm, ⟨41, _⟩ => ⟨S50000x128, .f32⟩
  | .hbm, ⟨42, _⟩ => ⟨S_, .i32⟩
  | .hbm, ⟨43, _⟩ => ⟨S606208, .i32⟩
  | .hbm, ⟨44, _⟩ => ⟨S606208, .i1⟩
  | .hbm, ⟨45, _⟩ => ⟨S_, .i32⟩
  | .hbm, ⟨46, _⟩ => ⟨S606208, .i32⟩
  | .hbm, ⟨47, _⟩ => ⟨S606208, .i32⟩
  | .hbm, ⟨48, _⟩ => ⟨S606208, .i32⟩
  | .hbm, ⟨49, _⟩ => ⟨S606208x1, .i32⟩
  | .hbm, ⟨50, _⟩ => ⟨S50000x128, .f32⟩
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128, .f32⟩
  | .local _ .vmem, ⟨8, _⟩ => ⟨S128, .f32⟩
  | .local _ .vmem, ⟨9, _⟩ => ⟨S8192x128, .f32⟩
  | .local _ .vmem, ⟨10, _⟩ => ⟨S8192x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128, .f32⟩
  | .local _ .vmem, ⟨15, _⟩ => ⟨S5000x128, .f32⟩
  | .local _ .vmem, ⟨16, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_c_1 : Ref sig .tc := ⟨.hbm, 16, rfl⟩
abbrev main_call2_v0 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_v8 : Ref sig .tc := ⟨.hbm, 21, rfl⟩
abbrev main_v9 : Ref sig .tc := ⟨.hbm, 22, rfl⟩
abbrev main_c_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_c_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_c_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![74], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  pads_S600000_S606208_062080 : S600000.Pads (![0] : Fin 1 → Nat) ![6208] ![0] S606208
  h_S_ : 0 < S_.numel
  bitsLt_bf16_f32 : FTy.bits .bf16 < FTy.bits .f32
  bcast_S_S606208 : S_.BroadcastsInDim S606208 (![] : Fin 0 → Fin S606208.rank)
  bcast_S606208_S606208x1_0 : S606208.BroadcastsInDim S606208x1 (![0] : Fin 1 → Fin S606208x1.rank)
  slices_S256x128_S128x128_0_0 : S256x128.Slices ![0, 0] S128x128
  slices_S256x128_S128x128_128_0 : S256x128.Slices ![128, 0] S128x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  inb_S5000x128_S5000x128_0_0 : ∀ a, (![0, 0] : Fin 2 → Nat) a + S5000x128.size a ≤ S5000x128.size a
  h_S5000x128 : 0 < S5000x128.numel
  broadcasts_S1x128_S5000x128 : S1x128.Broadcasts S5000x128
  gather_S50000x128_S606208x1_S606208x128_1_0_n_n_0_1_1128_wf : GatherDims.WF S50000x128 S606208x1 S606208x128 [1] [0] [] [0] [] 1 ![1, 128]
  dot_S8192x128_S128x128_S8192x128_1_0_0_1_n_n_wf : DotDims.WF S8192x128 S128x128 S8192x128 [1] [0] [0] [1] [] []
  dot_S5000x128_S128x128_S5000x128_1_0_0_1_n_n_wf : DotDims.WF S5000x128 S128x128 S5000x128 [1] [0] [0] [1] [] []
  scatter_S50000x128_S606208x1_S606208x128_1_0_0_1_wf : ScatterDims.WF S50000x128 S606208x1 S606208x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S606208x128.size a
  hwx0_0 : ∀ i : grid0.Coords, EltTy.bits .bf16 = 32 ∨ (Rect.block (s := S606208x128) S8192x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S606208x128.size a
  hwx0_1 : ∀ i : grid0.Coords, EltTy.bits .bf16 = 32 ∨ (Rect.block (s := S606208x128) S8192x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x128.size a ≤ S606208x128.size a
  hwx0_7 : ∀ i : grid0.Coords, EltTy.bits .f32 = 32 ∨ (Rect.block (s := S606208x128) S8192x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def gather_S50000x128_S606208x1_S606208x128_1_0_n_n_0_1_1128 : GatherDims S50000x128 S606208x1 S606208x128 where
  offsetDims := [1]
  collapsedSliceDims := [0]
  operandBatchingDims := []
  startIndicesBatchingDims := []
  startIndexMap := [0]
  indexVectorDim := 1
  sliceSizes := ![1, 128]
  wf := gather_S50000x128_S606208x1_S606208x128_1_0_n_n_0_1_1128_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000x128_S606208x1_S606208x128_1_0_0_1 : ScatterDims S50000x128 S606208x1 S606208x128 where
  updateWindowDims := [1]
  insertedWindowDims := [0]
  scatterDimsToOperandDims := [0]
  indexVectorDim := 1
  wf := scatter_S50000x128_S606208x1_S606208x128_1_0_0_1_wf

abbrev win0_0 : Pipeline.Window sig grid0 :=
  Pipeline.Window.ofSpec (Memref.whole main_v14) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S8192x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S256x128 : Shape := ⟨2, ![256, 128]⟩
abbrev S2x600000 : Shape := ⟨2, ![2, 600000]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S600000x256 : Shape := ⟨2, ![600000, 256]⟩
abbrev S1x128 : Shape := ⟨2, ![1, 128]⟩

abbrev nBuf : Space → Nat
  | .hbm => 62
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S256x128, .f32⟩
  | .hbm, ⟨4, _⟩ => ⟨S128, .f32⟩
  | .hbm, ⟨5, _⟩ => ⟨S2x600000, .i32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S_, .i32⟩
  | .hbm, ⟨11, _⟩ => ⟨S600000, .i32⟩
  | .hbm, ⟨12, _⟩ => ⟨S600000, .i1⟩
  | .hbm, ⟨13, _⟩ => ⟨S_, .i32⟩
  | .hbm, ⟨14, _⟩ => ⟨S600000, .i32⟩
  | .hbm, ⟨15, _⟩ => ⟨S600000, .i32⟩
  | .hbm, ⟨16, _⟩ => ⟨S600000, .i32⟩
  | .hbm, ⟨17, _⟩ => ⟨S600000x1, .i32⟩
  | .hbm, ⟨18, _⟩ => ⟨S600000x128, .f32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x128, .f32⟩
  | .hbm, ⟨28, _⟩ => ⟨S600000x256, .f32⟩
  | .hbm, ⟨29, _⟩ => ⟨S600000x128, .f32⟩
  | .hbm, ⟨30, _⟩ => ⟨S1x128, .f32⟩
  | .hbm, ⟨31, _⟩ => ⟨S600000x128, .f32⟩
  | .hbm, ⟨32, _⟩ => ⟨S600000x128, .f32⟩
  | .hbm, ⟨33, _⟩ => ⟨S600000x128, .f32⟩
  | .hbm, ⟨34, _⟩ => ⟨S600000x128, .f32⟩
  | .hbm, ⟨35, _⟩ => ⟨S_, .f32⟩
  | .hbm, ⟨36, _⟩ => ⟨S600000x128, .f32⟩
  | .hbm, ⟨37, _⟩ => ⟨S600000x128, .f32⟩
  | .hbm, ⟨38, _⟩ => ⟨S_, .f32⟩
  | .hbm, ⟨39, _⟩ => ⟨S600000x128, .f32⟩
  | .hbm, ⟨40, _⟩ => ⟨S600000x128, .f32⟩
  | .hbm, ⟨41, _⟩ => ⟨S600000x128, .f32⟩
  | .hbm, ⟨42, _⟩ => ⟨S1x128, .f32⟩
  | .hbm, ⟨43, _⟩ => ⟨S600000x128, .f32⟩
  | .hbm, ⟨44, _⟩ => ⟨S600000x128, .f32⟩
  | .hbm, ⟨45, _⟩ => ⟨S600000x128, .f32⟩
  | .hbm, ⟨46, _⟩ => ⟨S_, .f32⟩
  | .hbm, ⟨47, _⟩ => ⟨S50000x128, .f32⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S50000x128, .f32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_c_5 : Ref sig .tc := ⟨.hbm, 48, rfl⟩
abbrev main_v35 : Ref sig .tc := ⟨.hbm, 49, rfl⟩
abbrev main_v36 : Ref sig .tc := ⟨.hbm, 50, rfl⟩
abbrev main_c_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x256_d1 : Shape.Concatenates [S600000x128, S600000x128] S600000x256 1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  dot_S600000x256_S256x128_S600000x128_1_0_0_1_n_n_wf : DotDims.WF S600000x256 S256x128 S600000x128 [1] [0] [0] [1] [] []
  dot_S600000x128_S128x128_S600000x128_1_0_0_1_n_n_wf : DotDims.WF S600000x128 S128x128 S600000x128 [1] [0] [0] [1] [] []
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x256_S256x128_S600000x128_1_0_0_1_n_n : DotDims S600000x256 S256x128 S600000x128 where
  lhsContracting := [1]
  rhsContracting := [0]
  lhsNonContracting := [0]
  rhsNonContracting := [1]
  lhsBatch := []
  rhsBatch := []
  wf := dot_S600000x256_S256x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel program's run with its RESULT named.  @main is ten segments: seven stretches of host
  operations (the two rows of the edge list, their paddings, the gathers of the node table and the two halves of
  the gate weights), the message kernel's region, the node kernel's region, and a last stretch of host operations
  ending in the scatter-add.  Every weakly fair execution terminates without a fault, the six argument arrays end as
  launched, and the result buffer ends at the contents the fold of the segments gives it (`Gen.W10`).
-/
import proofs.«172536_j7275674599728_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main with the result buffer read off the last boundary's contents, beside the unchanged arguments. -/
theorem run_result : θ_run defs (onTc (τ := τ) (main (F := F))) ⟨m, fun _ => 0, ρ⟩ (fun r => ∀ c : Dev nD,
      r.2.mem ((c.tc : Thread nD τ).loc main_v32) = W10 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v32 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.Hand

end
-- ==== Proof.Spec.lean ====
/-
  The function both programs compute, entry by entry, over the extended reals.

  A graph has 50000 nodes with 128 features each (the table `X`) and 600000 directed edges given as two rows of
  32-bit words (row 0: the node an edge's message is added to, and the first node it reads; row 1: the second node
  it reads).  A raw word `z` names a node after wrapping a negative value once by 50000 (`wrapIx`); a READ clamps
  the wrapped value, taken as a signed integer, into [0, 49999] (`rowAt`); an ADDITION lands on node `n` only
  when the wrapped value, as a signed integer, is exactly `n` (an out-of-range word adds nowhere).

  One edge's message at feature `d` (`msgRow`) is the logistic function of the gate logit
  sum_k xr k * wgr k d + sum_k xc k * wgc k d + bg d, times the linear map sum_k xc k * w k d + b d of the second
  row read.  Entry (n, d) of the result (`G`) is the node's own linear map plus the sum of the messages of the
  edges that land on `n`.
-/
import Idealize.ShloMosaic.PureOps.Ideal
import Idealize.ShloMosaic.Lib.ValueIdx

noncomputable section

namespace Cert.Spec

open Idealize.ShloMosaic Idealize.ShloMosaic.ValueIdx
open scoped BigOperators

/-- A raw index word with a negative value wrapped once by the number of nodes. -/
def wrapIx (z : BitVec 32) : BitVec 32 := Scalar.select (IntOp.cmpi .slt z 0#32) (IntOp.addi z 50000#32) z

/-- The table row a read at the raw word `z` takes: the wrapped word as a signed integer, clamped into the table. -/
def rowAt (z : BitVec 32) : Fin 50000 := ⟨min (wrapIx z).toInt.toNat (50000 - 1), by omega⟩

/-- A row times a 128 x 128 matrix plus a bias, at column `d`. -/
def lin (x : Fin 128 → EReal) (w : Fin 128 → Fin 128 → EReal) (b : Fin 128 → EReal) (d : Fin 128) : EReal :=
  (∑ k : Fin 128, x k * w k d) + b d

/-- One edge's message at feature `d`, from the two rows it reads. -/
def msgRow (xr xc : Fin 128 → EReal) (wgr wgc w : Fin 128 → Fin 128 → EReal) (bg b : Fin 128 → EReal) (d : Fin 128) : EReal :=
  Ideal.logistic (((∑ k : Fin 128, xr k * wgr k d) + (∑ k : Fin 128, xc k * wgc k d)) + bg d) * lin xc w b d

/-- The message of the edge with raw words `zr`, `zc` at feature `d`, from the argument arrays: the gate weights'
    upper half meets the first row read, their lower half the second. -/
def edgeMsg (X : (⟨2, ![50000, 128]⟩ : Shape).Idx → EReal) (W : (⟨2, ![128, 128]⟩ : Shape).Idx → EReal)
    (b : (⟨1, ![128]⟩ : Shape).Idx → EReal) (Wg : (⟨2, ![256, 128]⟩ : Shape).Idx → EReal)
    (bg : (⟨1, ![128]⟩ : Shape).Idx → EReal) (zr zc : BitVec 32) (d : Fin 128) : EReal :=
  msgRow (fun k => X (ix2 (rowAt zr) k)) (fun k => X (ix2 (rowAt zc) k))
    (fun k d => Wg (ix2 (⟨0 + k.val, by omega⟩ : Fin 256) d)) (fun k d => Wg (ix2 (⟨128 + k.val, by omega⟩ : Fin 256) d))
    (fun k d => W (ix2 k d)) (fun d => bg (ix1 d)) (fun d => b (ix1 d)) d

/-- The node's own linear map at (n, d). -/
def nodeLin (X : (⟨2, ![50000, 128]⟩ : Shape).Idx → EReal) (W : (⟨2, ![128, 128]⟩ : Shape).Idx → EReal)
    (b : (⟨1, ![128]⟩ : Shape).Idx → EReal) (n : Fin 50000) (d : Fin 128) : EReal :=
  lin (fun k => X (ix2 n k)) (fun k d => W (ix2 k d)) (fun d => b (ix1 d)) d

/-- Entry (n, d) of the result. -/
def G (X : (⟨2, ![50000, 128]⟩ : Shape).Idx → EReal) (W : (⟨2, ![128, 128]⟩ : Shape).Idx → EReal)
    (b : (⟨1, ![128]⟩ : Shape).Idx → EReal) (Wg : (⟨2, ![256, 128]⟩ : Shape).Idx → EReal)
    (bg : (⟨1, ![128]⟩ : Shape).Idx → EReal) (EI : (⟨2, ![2, 600000]⟩ : Shape).Idx → BitVec 32)
    (n : Fin 50000) (d : Fin 128) : EReal :=
  nodeLin X W b n d
    + ∑ e : Fin 600000, if (wrapIx (EI (ix2 (0 : Fin 2) e))).toInt = (n.val : Int)
        then edgeMsg X W b Wg bg (EI (ix2 (0 : Fin 2) e)) (EI (ix2 (1 : Fin 2) e)) d else 0

/-- The word 50000 is not wrapped, and as a signed integer it is past the last node. -/
theorem wrapIx_sentinel : (wrapIx 50000#32).toInt = 50000 := by decide

/-- A sum over the first `n` of `t` positions, the rest contributing nothing, is the sum over `Fin n`. -/
theorem sum_fin_prefix {n t : Nat} (h : n ≤ t) (g : Fin n → EReal) (f : Fin t → EReal)
    (hin : ∀ e : Fin n, f (Fin.castLE h e) = g e) (hout : ∀ j : Fin t, n ≤ j.val → f j = 0) :
    ∑ j : Fin t, f j = ∑ e : Fin n, g e := by
  refine (Fintype.sum_of_injective (Fin.castLE h) (Fin.castLE_injective h) g f (fun j hj => hout j ?_) (fun e => (hin e).symm)).symm
  by_contra hlt
  exact hj ⟨⟨j.val, by omega⟩, Fin.ext rfl⟩

/-- A contraction over 256 positions splits into its first and its last 128. -/
theorem sum_256_split (f : Fin 256 → EReal) :
    ∑ k : Fin 256, f k = (∑ k : Fin 128, f ⟨0 + k.val, by omega⟩) + ∑ k : Fin 128, f ⟨128 + k.val, by omega⟩ := by
  have h := Fin.sum_univ_add (a := 128) (b := 128) (fun k : Fin (128 + 128) => f ⟨k.val, k.isLt⟩)
  refine (show (∑ k : Fin 256, f k) = ∑ k : Fin (128 + 128), f ⟨k.val, k.isLt⟩ from rfl).trans (h.trans ?_)
  congr 1
  all_goals exact Finset.sum_congr rfl fun k _ => congrArg f (Fin.ext (by simp))

end Cert.Spec

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.KernelBody.lean ====
/-
  The two kernel bodies' stored values, entry by entry, at the exact instance.

  The message kernel stores, at row `p` and feature `q` of its block, the message of the edge whose two gathered
  rows are rows `p` of its first two input blocks: three products with a zero accumulator are plain contractions
  over 128 positions, the changes of float format are the identity, the two bias rows are read at column `q`, and
  the logistic function is applied lane by lane.  The node kernel stores the linear map of row `p` of its input
  block.
-/
import proofs.«172536_j7275674599728_2_alg».proof.Proof.Gen.KernelIdeal.Skeleton
import proofs.«172536_j7275674599728_2_alg».proof.Proof.Spec
import proofs.«172536_j7275674599728_2_alg».proof.Proof.LibMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen
open Idealize.ShloMosaic Idealize.ShloMosaic.ValueIdx
open scoped BigOperators

/-- A product of an 8192 x 128 block with a 128 x 128 matrix into a zero accumulator, at an entry. -/
theorem mm_edge {φ₁ φ₂ : FTy} (l : FVec Ideal S8192x128 φ₁) (r : FVec Ideal S128x128 φ₂) (p : Fin 8192) (q : Fin 128) :
    matmul dot_S8192x128_S128x128_S8192x128_1_0_0_1_n_n none l r (constant (F := Ideal) S8192x128 .f32 0x00000000#32) (ix2 p q)
      = ∑ k : Fin 128, l (ix2 p k) * r (ix2 k q) :=
  Cert.MatmulAt.matmul_zero_plain_apply Facts₀.dot_S8192x128_S128x128_S8192x128_1_0_0_1_n_n_wf none l r p q

/-- A product of a 5000 x 128 block with a 128 x 128 matrix into a zero accumulator, at an entry. -/
theorem mm_node {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) :=
  Cert.MatmulAt.matmul_zero_plain_apply Facts₀.dot_S5000x128_S128x128_S5000x128_1_0_0_1_n_n_wf none l r p q

/-- A bias row cast to one row and broadcast over 8192 rows, at an entry, is the bias at the column. -/
theorem bias_edge (v : FVec Ideal S128 .f32) (p : Fin 8192) (q : Fin 128) :
    broadcastTo S8192x128 (shapeCast S1x128 v Facts₀.shapeCasts_S128_S1x128) Facts₀.broadcasts_S1x128_S8192x128 (ix2 p q) = v (ix1 q) :=
  (broadcastTo_1b_ab_apply _ Facts₀.broadcasts_S1x128_S8192x128 p q).trans
    (shapeCast_a_1a_apply v Facts₀.shapeCasts_S128_S1x128 (0 : Fin 1) q)

/-- The same over 5000 rows. -/
theorem bias_node (v : FVec Ideal S128 .f32) (p : Fin 5000) (q : Fin 128) :
    broadcastTo S5000x128 (shapeCast S1x128 v Facts₀.shapeCasts_S128_S1x128) Facts₀.broadcasts_S1x128_S5000x128 (ix2 p q) = v (ix1 q) :=
  (broadcastTo_1b_ab_apply _ Facts₀.broadcasts_S1x128_S5000x128 p q).trans
    (shapeCast_a_1a_apply v Facts₀.shapeCasts_S128_S1x128 (0 : Fin 1) q)

/-- The message kernel's stored value at row `p`, feature `q` of its block. -/
theorem msg_payload (x0 x1 : FVec Ideal S8192x128 .bf16) (x2 x3 x4 : FVec Ideal S128x128 .f32) (x5 x6 : FVec Ideal S128 .f32)
    (p : Fin 8192) (q : Fin 128) :
    k0_pay1 (F := Ideal) x0 x1 x2 x3 x4 x5 x6 (ix2 p q)
      = Cert.Spec.msgRow (fun k => x0 (ix2 p k)) (fun k => x1 (ix2 p k)) (fun k d => x2 (ix2 k d)) (fun k d => x3 (ix2 k d))
          (fun k d => x4 (ix2 k d)) (fun d => x5 (ix1 d)) (fun d => x6 (ix1 d)) q := by
  unfold k0_pay1
  simp only [shapeCast_self]
  show Ideal.logistic ((matmul _ none x0 _ _ (ix2 p q) + matmul _ none x1 _ _ (ix2 p q)) + broadcastTo _ _ _ (ix2 p q))
      * (matmul _ none x1 _ _ (ix2 p q) + broadcastTo _ _ _ (ix2 p q)) = _
  rw [mm_edge, mm_edge, mm_edge, bias_edge, bias_edge]
  rfl

/-- The node kernel's stored value at row `p`, feature `q` of its block. -/
theorem node_payload (x0 : FVec Ideal S5000x128 .f32) (x1 : FVec Ideal S128x128 .f32) (x2 : FVec Ideal S128 .f32)
    (p : Fin 5000) (q : Fin 128) :
    k1_pay1 (F := Ideal) x0 x1 x2 (ix2 p q)
      = Cert.Spec.lin (fun k => x0 (ix2 p k)) (fun k d => x1 (ix2 k d)) (fun d => x2 (ix1 d)) q := by
  unfold k1_pay1
  show matmul _ none _ _ _ (ix2 p q) + broadcastTo _ _ _ (ix2 p q) = _
  rw [mm_node, bias_node]
  rfl

end Cert.KernelIdeal.Body

end
-- ==== Proof.KernelBlocks.lean ====
/-
  What the two kernel regions leave in their output arrays, as whole-array functions of the arrays they read.

  The message kernel runs over 74 grid points; point `t` reads rows 8192 t … 8192 t + 8191 of the two gathered
  arrays and the whole of the three weight matrices and two bias rows, and writes back rows 8192 t … of the messages
  array: row `e` of the messages array is the message of padded edge `e`.  The node kernel runs over 10 points of
  5000 rows each and leaves the nodes' linear map.  In both, the output's blocks tile its array.
-/
import proofs.«172536_j7275674599728_2_alg».proof.Proof.Gen.KernelIdeal.Frame
import proofs.«172536_j7275674599728_2_alg».proof.Proof.KernelBody
import Idealize.ShloMosaic.Lib.Pipeline.Value

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The messages array from the two gathered arrays, the weights and the biases: row `e` is edge `e`'s message. -/
def msgArr (xr xc : FVec Ideal S606208x128 .bf16) (wgr wgc w : FVec Ideal S128x128 .f32) (bg b : FVec Ideal S128 .f32) :
    FVec Ideal S606208x128 .f32 := fun i =>
  Cert.Spec.msgRow (fun k => xr (ix2 (i 0) k)) (fun k => xc (ix2 (i 0) k)) (fun k d => wgr (ix2 k d)) (fun k d => wgc (ix2 k d))
    (fun k d => w (ix2 k d)) (fun d => bg (ix1 d)) (fun d => b (ix1 d)) (i 1)

/-- The nodes' linear map as an array. -/
def nodeArr (x : FVec Ideal S50000x128 .f32) (w : FVec Ideal S128x128 .f32) (b : FVec Ideal S128 .f32) :
    FVec Ideal S50000x128 .f32 := fun i =>
  Cert.Spec.lin (fun k => x (ix2 (i 0) k)) (fun k d => w (ix2 k d)) (fun d => b (ix1 d)) (i 1)

/-! ## The message kernel's region -/

/-- The printed index maps over the grid: the row-blocked windows sit at block `t`, the others at block 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0 ∧ win0_6.index t (0 : Fin 1) = 0
    ∧ win0_7.index t (0 : Fin 2) = t.val ∧ win0_7.index t (1 : Fin 2) = 0 :=
  (by decide +kernel : ∀ t : Fin grid0.N, _)

/-- Row `p` of the first gathered block at point `t` is row 8192 t + p of the first gathered array. -/
theorem iblk0_0_apply (c : Dev nD) (t : Fin cfg0.N) (p : Fin 8192) (k : Fin 128) (e : Fin 606208) (he : e.val = t.val * 8192 + p.val) :
    (iblk0 V c 0 t : Vec Ideal S8192x128 .bf16) (ix2 p k) = (V c main_v14 : Vec Ideal S606208x128 .bf16) (ix2 e k) := by
  obtain ⟨e0, e1, -⟩ := idx_facts0 t
  unfold iblk0
  rw [View.read_apply]
  show V c main_v14 _ = V c main_v14 _
  congr 1
  funext a
  apply Fin.ext
  match a with
  | ⟨0, _⟩ => show win0_0.index t (0 : Fin 2) * 8192 + 1 * p.val = e.val; rw [e0, he]; omega
  | ⟨1, _⟩ => show win0_0.index t (1 : Fin 2) * 128 + 1 * k.val = k.val; rw [e1]; omega

/-- The same for the second gathered block. -/
theorem iblk0_1_apply (c : Dev nD) (t : Fin cfg0.N) (p : Fin 8192) (k : Fin 128) (e : Fin 606208) (he : e.val = t.val * 8192 + p.val) :
    (iblk0 V c 1 t : Vec Ideal S8192x128 .bf16) (ix2 p k) = (V c main_v21 : Vec Ideal S606208x128 .bf16) (ix2 e k) := by
  obtain ⟨-, -, e0, e1, -⟩ := idx_facts0 t
  unfold iblk0
  rw [View.read_apply]
  show V c main_v21 _ = V c main_v21 _
  congr 1
  funext a
  apply Fin.ext
  match a with
  | ⟨0, _⟩ => show win0_1.index t (0 : Fin 2) * 8192 + 1 * p.val = e.val; rw [e0, he]; omega
  | ⟨1, _⟩ => show win0_1.index t (1 : Fin 2) * 128 + 1 * k.val = k.val; rw [e1]; omega

/-- The three weight windows and the two bias windows hold their whole arrays at every point. -/
theorem iblk0_2_eq (c : Dev nD) (t : Fin cfg0.N) : (iblk0 V c 2 t : Vec Ideal S128x128 .f32) = V c main_v22 := by
  obtain ⟨-, -, -, -, e0, e1, -⟩ := idx_facts0 t
  funext y
  unfold iblk0
  rw [View.read_apply]
  show V c main_v22 _ = V c main_v22 y
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

theorem iblk0_3_eq (c : Dev nD) (t : Fin cfg0.N) : (iblk0 V c 3 t : Vec Ideal S128x128 .f32) = V c main_v23 := by
  obtain ⟨-, -, -, -, -, -, e0, e1, -⟩ := idx_facts0 t
  funext y
  unfold iblk0
  rw [View.read_apply]
  show V c main_v23 _ = V c main_v23 y
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

theorem iblk0_4_eq (c : Dev nD) (t : Fin cfg0.N) : (iblk0 V c 4 t : Vec Ideal S128x128 .f32) = V c main_arg1 := by
  obtain ⟨-, -, -, -, -, -, -, -, e0, e1, -⟩ := idx_facts0 t
  funext y
  unfold iblk0
  rw [View.read_apply]
  show V c main_arg1 _ = V c main_arg1 y
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

theorem iblk0_5_eq (c : Dev nD) (t : Fin cfg0.N) : (iblk0 V c 5 t : Vec Ideal S128 .f32) = V c main_arg4 := by
  obtain ⟨-, -, -, -, -, -, -, -, -, -, e0, -⟩ := idx_facts0 t
  funext y
  unfold iblk0
  rw [View.read_apply]
  show V c main_arg4 _ = V c main_arg4 y
  congr 1
  funext a
  apply Fin.ext
  match a with
  | ⟨0, _⟩ => show win0_5.index t (0 : Fin 1) * 128 + 1 * (y 0).val = (y 0).val; rw [e0]; omega

theorem iblk0_6_eq (c : Dev nD) (t : Fin cfg0.N) : (iblk0 V c 6 t : Vec Ideal S128 .f32) = V c main_arg2 := by
  obtain ⟨-, -, -, -, -, -, -, -, -, -, -, e0, -⟩ := idx_facts0 t
  funext y
  unfold iblk0
  rw [View.read_apply]
  show V c main_arg2 _ = V c main_arg2 y
  congr 1
  funext a
  apply Fin.ext
  match a with
  | ⟨0, _⟩ => show win0_6.index t (0 : Fin 1) * 128 + 1 * (y 0).val = (y 0).val; rw [e0]; omega

/-- What point `t` writes back is block `t` of the messages array. -/
theorem flushed0_eq (c : Dev nD) (t : Fin cfg0.N) :
    (dat0 V c).flushed 7 t = ((cfg0.win 7).blk t).view.read (Elt Ideal)
      (msgArr (V c main_v14) (V c main_v21) (V c main_v22) (V c main_v23) (V c main_arg1) (V c main_arg4) (V c main_arg2)) := by
  show (cfg0.win 7).cut (grid0.coords t) ((dat0 V c).after 7 t) = _
  rw [after0_7]
  unfold out0_7
  rw [View.canon_unit_zero hz2]
  simp only [View.ld_unit_zero (S := S8192x128) hz2, View.ld_unit_zero (S := S128x128) hz2, View.ld_unit_zero (S := S128) hz1]
  rw [iblk0_2_eq, iblk0_3_eq, iblk0_4_eq, iblk0_5_eq, iblk0_6_eq]
  have hN : cfg0.N = 74 := N_0
  obtain ⟨-, -, -, -, -, -, -, -, -, -, -, -, e0, e1⟩ := idx_facts0 t
  funext y
  obtain ⟨p, q, rfl⟩ : ∃ (p : Fin 8192) (q : Fin 128), y = ix2 p q := ⟨y 0, y 1, eq_ix2 y⟩
  have ht : t.val < 74 := hN ▸ t.isLt
  let e : Fin 606208 := ⟨t.val * 8192 + p.val, by have := p.isLt; omega⟩
  have hemb : ((cfg0.win 7).blk t).view.emb (ix2 p q) = (ix2 e q : S606208x128.Idx) := by
    funext a
    apply Fin.ext
    match a with
    | ⟨0, _⟩ => show win0_7.index t (0 : Fin 2) * 8192 + 1 * p.val = t.val * 8192 + p.val; rw [e0]; omega
    | ⟨1, _⟩ => show win0_7.index t (1 : Fin 2) * 128 + 1 * q.val = q.val; rw [e1]; omega
  show k0_pay1 (F := Ideal) (iblk0 V c 0 t) (iblk0 V c 1 t) (V c main_v22) (V c main_v23) (V c main_arg1) (V c main_arg4) (V c main_arg2) (ix2 p q)
    = msgArr (V c main_v14) (V c main_v21) (V c main_v22) (V c main_v23) (V c main_arg1) (V c main_arg4) (V c main_arg2) (((cfg0.win 7).blk t).view.emb (ix2 p q))
  rw [hemb]
  refine (Cert.KernelIdeal.Body.msg_payload (iblk0 V c 0 t) (iblk0 V c 1 t) (V c main_v22) (V c main_v23) (V c main_arg1) (V c main_arg4) (V c main_arg2) p q).trans ?_
  unfold msgArr
  have h0 : ∀ k : Fin 128, (iblk0 V c 0 t : Vec Ideal S8192x128 .bf16) (ix2 p k) = V c main_v14 (ix2 e k) := fun k => iblk0_0_apply V c t p k e rfl
  have h1 : ∀ k : Fin 128, (iblk0 V c 1 t : Vec Ideal S8192x128 .bf16) (ix2 p k) = V c main_v21 (ix2 e k) := fun k => iblk0_1_apply V c t p k e rfl
  simp only [h0, h1]

/-- An index of the messages array is in point `t`'s block iff its row is among that block's rows. -/
theorem mem_blk0 (t : Fin cfg0.N) (i : S606208x128.Idx) :
    i ∈ ((cfg0.win 7).blk t).view.set ↔ ∀ a : Fin 2, win0_7.index t a * S8192x128.size a ≤ (i a).val ∧ (i a).val < win0_7.index t a * S8192x128.size a + S8192x128.size a := by
  show i ∈ ((View.whole main_v24).slice (win0_7.rect t)).set ↔ _
  rw [View.set_slice_whole, Rect.mem_set_unit]
  exact Iff.rfl

/-- The messages array after the region. -/
theorem final0 (c : Dev nD) : (dat0 V c).arrAt 7 cfg0.N
    = msgArr (V c main_v14) (V c main_v21) (V c main_v22) (V c main_v23) (V c main_arg1) (V c main_arg4) (V c main_arg2) :=
  (dat0 V c).arrAt_eq_of_cover 7 _ (fun t _ => flushed0_eq V c t) fun i => by
    have hN : cfg0.N = 74 := N_0
    have hi0 : (i 0).val < 606208 := idx2_lt0 i
    have hi1 : (i 1).val < 128 := idx2_lt1 i
    let t : Fin cfg0.N := ⟨(i 0).val / 8192, by rw [hN]; omega⟩
    obtain ⟨-, -, -, -, -, -, -, -, -, -, -, -, e0, e1⟩ := idx_facts0 t
    refine ⟨t, flush0_7 t, ?_⟩
    rw [mem_blk0]
    intro a
    match a with
    | ⟨0, _⟩ => show win0_7.index t (0 : Fin 2) * 8192 ≤ (i 0).val ∧ (i 0).val < win0_7.index t (0 : Fin 2) * 8192 + 8192
                rw [e0]; show (i 0).val / 8192 * 8192 ≤ (i 0).val ∧ (i 0).val < (i 0).val / 8192 * 8192 + 8192; omega
    | ⟨1, _⟩ => show win0_7.index t (1 : Fin 2) * 128 ≤ (i 1).val ∧ (i 1).val < win0_7.index t (1 : Fin 2) * 128 + 128
                rw [e1]; omega

/-! ## The node kernel's region -/

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- Row `p` of the node block at point `t` is row 5000 t + p of the node table. -/
theorem iblk1_0_apply (c : Dev nD) (t : Fin cfg1.N) (p : Fin 5000) (k : Fin 128) (n : Fin 50000) (hn : n.val = t.val * 5000 + p.val) :
    (iblk1 V c 0 t : Vec Ideal S5000x128 .f32) (ix2 p k) = (V c main_arg0 : Vec Ideal S50000x128 .f32) (ix2 n k) := by
  obtain ⟨e0, e1, -⟩ := idx_facts1 t
  unfold iblk1
  rw [View.read_apply]
  show V c main_arg0 _ = V c main_arg0 _
  congr 1
  funext a
  apply Fin.ext
  match a with
  | ⟨0, _⟩ => show win1_0.index t (0 : Fin 2) * 5000 + 1 * p.val = n.val; rw [e0, hn]; omega
  | ⟨1, _⟩ => show win1_0.index t (1 : Fin 2) * 128 + 1 * k.val = k.val; rw [e1]; omega

theorem iblk1_1_eq (c : Dev nD) (t : Fin cfg1.N) : (iblk1 V c 1 t : Vec Ideal S128x128 .f32) = V c main_arg1 := by
  obtain ⟨-, -, e0, e1, -⟩ := idx_facts1 t
  funext y
  unfold iblk1
  rw [View.read_apply]
  show V c main_arg1 _ = V c main_arg1 y
  congr 1
  funext a
  apply Fin.ext
  match a with
  | ⟨0, _⟩ => show win1_1.index t (0 : Fin 2) * 128 + 1 * (y 0).val = (y 0).val; rw [e0]; omega
  | ⟨1, _⟩ => show win1_1.index t (1 : Fin 2) * 128 + 1 * (y 1).val = (y 1).val; rw [e1]; omega

theorem iblk1_2_eq (c : Dev nD) (t : Fin cfg1.N) : (iblk1 V c 2 t : Vec Ideal S128 .f32) = V c main_arg2 := by
  obtain ⟨-, -, -, -, e0, -⟩ := idx_facts1 t
  funext y
  unfold iblk1
  rw [View.read_apply]
  show V c main_arg2 _ = V c main_arg2 y
  congr 1
  funext a
  apply Fin.ext
  match a with
  | ⟨0, _⟩ => show win1_2.index t (0 : Fin 1) * 128 + 1 * (y 0).val = (y 0).val; rw [e0]; omega

/-- What point `t` writes back is block `t` of the nodes' linear map. -/
theorem flushed1_eq (c : Dev nD) (t : Fin cfg1.N) :
    (dat1 V c).flushed 3 t = ((cfg1.win 3).blk t).view.read (Elt Ideal) (nodeArr (V c main_arg0) (V c main_arg1) (V c main_arg2)) := by
  show (cfg1.win 3).cut (grid1.coords t) ((dat1 V c).after 3 t) = _
  rw [after1_3]
  unfold out1_3
  rw [View.canon_unit_zero hz2]
  simp only [View.ld_unit_zero (S := S5000x128) hz2, View.ld_unit_zero (S := S128x128) hz2, View.ld_unit_zero (S := S128) hz1]
  rw [iblk1_1_eq, iblk1_2_eq]
  have hN : cfg1.N = 10 := N_1
  obtain ⟨-, -, -, -, -, e0, e1⟩ := idx_facts1 t
  funext y
  obtain ⟨p, q, rfl⟩ : ∃ (p : Fin 5000) (q : Fin 128), y = ix2 p q := ⟨y 0, y 1, eq_ix2 y⟩
  have ht : t.val < 10 := hN ▸ t.isLt
  let n : Fin 50000 := ⟨t.val * 5000 + p.val, by have := p.isLt; omega⟩
  have hemb : ((cfg1.win 3).blk t).view.emb (ix2 p q) = (ix2 n q : S50000x128.Idx) := by
    funext a
    apply Fin.ext
    match a with
    | ⟨0, _⟩ => show win1_3.index t (0 : Fin 2) * 5000 + 1 * p.val = t.val * 5000 + p.val; rw [e0]; omega
    | ⟨1, _⟩ => show win1_3.index t (1 : Fin 2) * 128 + 1 * q.val = q.val; rw [e1]; omega
  show k1_pay1 (F := Ideal) (iblk1 V c 0 t) (V c main_arg1) (V c main_arg2) (ix2 p q)
    = nodeArr (V c main_arg0) (V c main_arg1) (V c main_arg2) (((cfg1.win 3).blk t).view.emb (ix2 p q))
  rw [hemb]
  refine (Cert.KernelIdeal.Body.node_payload (iblk1 V c 0 t) (V c main_arg1) (V c main_arg2) p q).trans ?_
  unfold nodeArr
  have h0 : ∀ k : Fin 128, (iblk1 V c 0 t : Vec Ideal S5000x128 .f32) (ix2 p k) = V c main_arg0 (ix2 n k) := fun k => iblk1_0_apply V c t p k n rfl
  simp only [h0]

theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v25).slice (win1_3.rect t)).set ↔ _
  rw [View.set_slice_whole, Rect.mem_set_unit]
  exact Iff.rfl

/-- The nodes' linear map after the region. -/
theorem final1 (c : Dev nD) : (dat1 V c).arrAt 3 cfg1.N = nodeArr (V c main_arg0) (V c main_arg1) (V c main_arg2) :=
  (dat1 V c).arrAt_eq_of_cover 3 _ (fun t _ => flushed1_eq V c t) fun i => by
    have hN : cfg1.N = 10 := N_1
    have hi0 : (i 0).val < 50000 := idx2_lt0 i
    have hi1 : (i 1).val < 128 := idx2_lt1 i
    let t : Fin cfg1.N := ⟨(i 0).val / 5000, by rw [hN]; omega⟩
    obtain ⟨-, -, -, -, -, e0, e1⟩ := idx_facts1 t
    refine ⟨t, flush1_3 t, ?_⟩
    rw [mem_blk1]
    intro a
    match a with
    | ⟨0, _⟩ => show win1_3.index t (0 : Fin 2) * 5000 ≤ (i 0).val ∧ (i 0).val < win1_3.index t (0 : Fin 2) * 5000 + 5000
                rw [e0]; show (i 0).val / 5000 * 5000 ≤ (i 0).val ∧ (i 0).val < (i 0).val / 5000 * 5000 + 5000; omega
    | ⟨1, _⟩ => show win1_3.index t (1 : Fin 2) * 128 ≤ (i 1).val ∧ (i 1).val < win1_3.index t (1 : Fin 2) * 128 + 128
                rw [e1]; omega

end Cert.KernelIdeal.Blocks

end
-- ==== Proof.LibGatherRows.lean ====
/-
  A gather of whole rows of a rank-2 table at a column of row numbers, read at an entry.
-/
import Idealize.ShloMosaic.PureOps.Ideal
import Idealize.ShloMosaic.Lib.ValueIdx

noncomputable section

open Idealize.ShloMosaic Idealize.ShloMosaic.ValueIdx
open scoped BigOperators

namespace Cert.LibRows

/-- The dimension numbers of a gather of whole rows: operand `[N, C]`, start indices `[E, 1]` (one row number per
    result row), result `[E, C]`; the row axis collapsed, the column axis the one offset axis. -/
abbrev rowsGather (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gather of whole rows read at `(e, c)` is the table at column `c` of the row whose number is the start index
    of result row `e`, read signed and clamped into `[0, N − 1]`. -/
theorem gather_rows_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsGather N C E wf) x idx (ix2 e c)
      = x (ix2 (⟨min (idx (ix2 e (0 : Fin 1))).toInt.toNat (N - 1), by omega⟩ : Fin N) c) := by
  have h0 : (rowsGather N C E wf).start (ix2 e c) idx 0 + (rowsGather N C E wf).batchCoord (ix2 e c) 0
      + (rowsGather N C E wf).offCoord (ix2 e c) 0 = min (idx (ix2 e (0 : Fin 1))).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather N C E wf).startIndexMap from List.mem_singleton.mpr rfl)]
    have hsi : (rowsGather N C E wf).siIdx (ix2 e c) ⟨List.idxOf (0 : Fin 2) (rowsGather N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : (rowsGather N C E wf).start (ix2 e c) idx 1 + (rowsGather N C E wf).batchCoord (ix2 e c) 1
      + (rowsGather N C E wf).offCoord (ix2 e c) 1 = c.val := by
    rw [GatherDims.batchCoord_eq_zero _ _ _ List.not_mem_nil]
    have hs : (rowsGather N C E wf).start (ix2 e c) idx 1 = 0 := by
      unfold GatherDims.start
      rw [dif_neg (show ¬ ((1 : Fin 2) ∈ ([0] : List (Fin 2))) from by decide)]
    rw [hs, Nat.add_zero, Nat.zero_add]
    rfl
  unfold Host.gather
  congr 1
  funext a
  refine Fin.ext ?_
  match a with
  | ⟨0, _⟩ => exact h0
  | ⟨1, _⟩ => exact h1

end Cert.LibRows

end
-- ==== Proof.LibPadTail.lean ====
/-
  A rank-1 array padded at its end with copies of a scalar, read at an entry.
-/
import Idealize.ShloMosaic.Lib.KernelVsHost

noncomputable section

open Idealize.ShloMosaic Idealize.ShloMosaic.ValueIdx
open scoped BigOperators

namespace Cert.LibRows

/-- A vector of `n` entries padded at its end with `h` copies of the padding value has its own entry `j` at every
    entry `j` below `n`, and the padding value from entry `n` on. -/
theorem pad_tail_apply {α : Type} {n h t : Nat} {u : Shape} (x : (⟨1, ![n]⟩ : Shape).Idx → α) (v : u.Idx → α)
    (hp : (⟨1, ![n]⟩ : Shape).Pads ![0] ![h] ![0] ⟨1, ![t]⟩) (hu : 0 < u.numel) (j : Fin t) :
    pad ⟨1, ![t]⟩ ![0] ![h] ![0] x v hp hu (ix1 j) = if hj : j.val < n then x (ix1 ⟨j.val, hj⟩) else v (Shape.Idx.first hu) := by
  by_cases hj : j.val < n
  · rw [dif_pos hj]
    exact pad_apply_of_inside _ _ _ x v hp hu _ (ix1 (⟨j.val, hj⟩ : Fin n)) (by
      intro a
      have ha : a = 0 := Subsingleton.elim _ _
      subst ha
      show j.val = 0 + j.val * (0 + 1); omega)
  · rw [dif_neg hj]
    exact pad_apply_of_not_inside _ _ _ x v hp hu _ (0 : Fin 1) (by
      intro hin
      have e : (j.val - 0) / (0 + 1) < n := hin.2.2
      rw [Nat.sub_zero, Nat.div_one] at e
      exact hj e)

end Cert.LibRows

end
-- ==== Proof.KernelHostOps.lean ====
/-
  The host operations around the two kernel regions, as functions of the argument arrays, read at an entry.

  The two rows of the edge list are cut out and flattened (`rowWords`, `colWords`); each is padded at its end with
  6208 copies of a word (`padWith`): 0 for the two arrays the gathers read, 50000 for the array the scatter-add reads.
  A padded array is wrapped entry by entry and made a column (`wrapCol`).  The node table, its format changed, is
  gathered by rows at such a column (`gathered`): row `e` of the result is the table's row at the wrapped word,
  clamped into the table.  The gate weights are cut into their upper and lower halves.
-/
import proofs.«172536_j7275674599728_2_alg».proof.Proof.Gen.KernelIdeal
import proofs.«172536_j7275674599728_2_alg».proof.Proof.Spec
import proofs.«172536_j7275674599728_2_alg».proof.Proof.LibGatherRows
import proofs.«172536_j7275674599728_2_alg».proof.Proof.LibPadTail
import Idealize.ShloMosaic.Lib.ValueIdx
import Idealize.ShloMosaic.Lib.ValueLayout
import Idealize.ShloMosaic.Lib.Pipeline.Value

noncomputable section

namespace Cert.KernelIdeal.HostOps

open Cert.KernelIdeal
open Idealize.ShloMosaic Idealize.ShloMosaic.ValueIdx
open Facts₀

/-- Row 0 of the edge list, flattened. -/
def rowWords (ei : IVec S2x600000 32) : IVec S600000 32 :=
  shapeCast S600000 (extractStridedSlice S1x600000 ![0, 0] ei slices_S2x600000_S1x600000_0_0) shapeCasts_S1x600000_S600000

/-- Row 1 of the edge list, flattened. -/
def colWords (ei : IVec S2x600000 32) : IVec S600000 32 :=
  shapeCast S600000 (extractStridedSlice S1x600000 ![1, 0] ei slices_S2x600000_S1x600000_1_0) shapeCasts_S1x600000_S600000

/-- A flattened row padded at its end with 6208 copies of the word `z`. -/
def padWith (v : IVec S600000 32) (z : BitVec 32) : IVec S606208 32 :=
  pad S606208 ![0] ![6208] ![0] v (id (constantI S_ 32 z)) pads_S600000_S606208_062080 h_S_

/-- A padded row wrapped entry by entry and made a column. -/
def wrapCol (v : IVec S606208 32) : IVec S606208x1 32 :=
  broadcastInDim S606208x1 ![0] bcast_S606208_S606208x1_0
    (select (cmpi .slt v (broadcastInDim S606208 ![] bcast_S_S606208 (constantI S_ 32 0#32)))
      (addi v (broadcastInDim S606208 ![] bcast_S_S606208 (constantI S_ 32 50000#32))) v)

/-- The node table gathered by rows at a wrapped column. -/
def gathered (x : FVec Ideal S50000x128 .f32) (v : IVec S606208 32) : FVec Ideal S606208x128 .bf16 :=
  Host.gather gather_S50000x128_S606208x1_S606208x128_1_0_n_n_0_1_1128 (truncf .bf16 x bitsLt_bf16_f32) (wrapCol v)

/-- The upper half of the gate weights. -/
def wgTop (wg : FVec Ideal S256x128 .f32) : FVec Ideal S128x128 .f32 :=
  extractStridedSlice S128x128 ![0, 0] wg slices_S256x128_S128x128_0_0

/-- The lower half of the gate weights. -/
def wgBot (wg : FVec Ideal S256x128 .f32) : FVec Ideal S128x128 .f32 :=
  extractStridedSlice S128x128 ![128, 0] wg slices_S256x128_S128x128_128_0

theorem rowWords_apply (ei : IVec S2x600000 32) (e : Fin 600000) : rowWords ei (ix1 e) = ei (ix2 (0 : Fin 2) e) := by
  unfold rowWords
  refine (shapeCast_1a_a_apply _ shapeCasts_S1x600000_S600000 e).trans ?_
  exact slice2_axis0_apply 0 ei slices_S2x600000_S1x600000_0_0 (0 : Fin 1) e (0 : Fin 2) rfl

theorem colWords_apply (ei : IVec S2x600000 32) (e : Fin 600000) : colWords ei (ix1 e) = ei (ix2 (1 : Fin 2) e) := by
  unfold colWords
  refine (shapeCast_1a_a_apply _ shapeCasts_S1x600000_S600000 e).trans ?_
  exact slice2_axis0_apply 1 ei slices_S2x600000_S1x600000_1_0 (0 : Fin 1) e (1 : Fin 2) rfl

/-- A padded row at a position inside the row is the row there. -/
theorem padWith_inside (v : IVec S600000 32) (z : BitVec 32) (j : Fin 606208) (hj : j.val < 600000) :
    padWith v z (ix1 j) = v (ix1 ⟨j.val, hj⟩) := by
  unfold padWith
  rw [Cert.LibRows.pad_tail_apply v _ pads_S600000_S606208_062080 h_S_ j, dif_pos hj]

/-- A padded row at a position past the row is the padding word. -/
theorem padWith_outside (v : IVec S600000 32) (z : BitVec 32) (j : Fin 606208) (hj : 600000 ≤ j.val) :
    padWith v z (ix1 j) = z := by
  unfold padWith
  rw [Cert.LibRows.pad_tail_apply v _ pads_S600000_S606208_062080 h_S_ j, dif_neg (by omega)]
  rfl

/-- The wrapped column at row `e` is the wrapped word of the padded row's entry `e`. -/
theorem wrapCol_apply (v : IVec S606208 32) (e : Fin 606208) : wrapCol v (ix2 e (0 : Fin 1)) = Cert.Spec.wrapIx (v (ix1 e)) := by
  unfold wrapCol
  refine (broadcastInDim_apply _ bcast_S606208_S606208x1_0 _ (ix2 e (0 : Fin 1)) (ix1 e) (fun a => ?_)).trans ?_
  · match a with
    | ⟨0, _⟩ => show e.val = if (606208 : Nat) = 1 then 0 else e.val; rw [if_neg (by decide)]
  · rfl

/-- Row `e` of the gathered array is the table's row at the wrapped word of entry `e`, clamped into the table. -/
theorem gathered_apply (x : FVec Ideal S50000x128 .f32) (v : IVec S606208 32) (e : Fin 606208) (k : Fin 128) :
    gathered x v (ix2 e k) = x (ix2 (Cert.Spec.rowAt (v (ix1 e))) k) := by
  unfold gathered
  refine (Cert.LibRows.gather_rows_apply (by decide : 0 < 50000) gather_S50000x128_S606208x1_S606208x128_1_0_n_n_0_1_1128_wf
    (truncf .bf16 x bitsLt_bf16_f32) (wrapCol v) e k).trans ?_
  exact congrArg (fun r : Fin 50000 => x (ix2 r k)) (Fin.ext (by
    show min (wrapCol v (ix2 e (0 : Fin 1))).toInt.toNat (50000 - 1) = min (Cert.Spec.wrapIx (v (ix1 e))).toInt.toNat (50000 - 1)
    rw [wrapCol_apply]))

theorem wgTop_apply (wg : FVec Ideal S256x128 .f32) (k d : Fin 128) :
    wgTop wg (ix2 k d) = wg (ix2 (⟨0 + k.val, by omega⟩ : Fin 256) d) := by
  unfold wgTop
  exact slice2_axis0_apply 0 wg slices_S256x128_S128x128_0_0 k d _ rfl

theorem wgBot_apply (wg : FVec Ideal S256x128 .f32) (k d : Fin 128) :
    wgBot wg (ix2 k d) = wg (ix2 (⟨128 + k.val, by omega⟩ : Fin 256) d) := by
  unfold wgBot
  exact slice2_axis0_apply 128 wg slices_S256x128_S128x128_128_0 k d _ rfl

end Cert.KernelIdeal.HostOps

end
-- ==== Proof.LibScatterRows.lean ====
/-
  A float scatter-add of whole rows into a rank-2 table at a column of row numbers, read at an entry.
-/
import Idealize.ShloMosaic.PureOps.Ideal
import Idealize.ShloMosaic.Lib.ValueIdx

noncomputable section

open Idealize.ShloMosaic Idealize.ShloMosaic.ValueIdx
open scoped BigOperators

namespace Cert.LibRows

/-- The dimension numbers of a scatter of whole rows: operand `[N, C]`, scatter indices `[E, 1]` (one row number per
    update row), updates `[E, C]`; the row axis inserted, the column axis the one window axis. -/
abbrev rowsScatter (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Coordinates
variable {N C E w : Nat} (wf : ScatterDims.WF ⟨2, ![N, C]⟩ ⟨2, ![E, 1]⟩ ⟨2, ![E, C]⟩ [1] [0] [0] 1)
  (idx : IVec ⟨2, ![E, 1]⟩ w) (e : Fin E) (c' : Fin C)

/-- On the row axis the window of update entry `(e, c')` starts at the row number of update row `e`, read signed. -/
theorem rowsScatter_start_row :
    (rowsScatter N C E wf).start (ix2 e c') idx 0 = (idx (ix2 e (0 : Fin 1))).toInt := by
  unfold ScatterDims.start
  rw [dif_pos (show (0 : Fin 2) ∈ (rowsScatter N C E wf).scatterDimsToOperandDims from List.mem_singleton.mpr rfl)]
  have hsi : (rowsScatter N C E wf).siIdx (ix2 e c') ⟨List.idxOf (0 : Fin 2) (rowsScatter N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at `0`. -/
theorem rowsScatter_start_col : (rowsScatter N C E wf).start (ix2 e c') idx 1 = 0 := by
  unfold ScatterDims.start
  rw [dif_neg (show ¬ ((1 : Fin 2) ∈ ([0] : List (Fin 2))) from by decide)]

/-- On the row axis the window coordinate is `0`. -/
theorem rowsScatter_window_row : (rowsScatter N C E wf).window (ix2 e c') 0 = 0 := by
  unfold ScatterDims.window
  rw [dif_neg (show ¬ ((0 : Fin 2) ∈ (rowsScatter N C E wf).sKept) from
    (show ¬ ((0 : Fin 2) ∈ (List.finRange 2).filter (fun a => a ∉ ([0] : List (Fin 2)))) from by decide))]

/-- On the column axis the window coordinate is the update entry's column. -/
theorem rowsScatter_window_col : (rowsScatter N C E wf).window (ix2 e c') 1 = c'.val := by
  unfold ScatterDims.window
  rw [dif_pos (show (1 : Fin 2) ∈ (rowsScatter N C E wf).sKept from
    (show (1 : Fin 2) ∈ (List.finRange 2).filter (fun a => a ∉ ([0] : List (Fin 2))) from by decide))]
  rfl

end Coordinates

/-- Update entry `(e, c')` lands at operand entry `(n, c)` exactly when the row number of update row `e`, read signed
    and not clamped, is `n` and the columns agree. -/
theorem rowsScatter_resultIdx_eq_some_iff {N C E w : Nat} (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowsScatter N C E wf).resultIdx? (ix2 e c') idx = some (ix2 n c) ↔ (idx (ix2 e (0 : Fin 1))).toInt = (n.val : Int) ∧ c' = c := by
  have hs0 := rowsScatter_start_row wf idx e c'
  have hs1 := rowsScatter_start_col wf idx e c'
  have hw0 := rowsScatter_window_row wf e c'
  have hw1 := rowsScatter_window_col wf e c'
  have hn := n.isLt
  have hc := c.isLt
  have hc' := c'.isLt
  unfold ScatterDims.resultIdx?
  constructor
  · intro h
    split at h
    · rename_i hin
      have h' := Option.some.inj h
      have e0 : ((rowsScatter N C E wf).start (ix2 e c') idx 0 + ((rowsScatter N C E wf).window (ix2 e c') 0 : Nat)).toNat = n.val :=
        congrArg (fun f => (f 0).val) h'
      have e1 : ((rowsScatter N C E wf).start (ix2 e c') idx 1 + ((rowsScatter N C E wf).window (ix2 e c') 1 : Nat)).toNat = c.val :=
        congrArg (fun f => (f 1).val) h'
      have p0 := (hin 0).1
      rw [hs0, hw0] at e0 p0
      rw [hs1, hw1] at e1
      refine ⟨by omega, Fin.ext (by omega)⟩
    · exact absurd h (by simp)
  · rintro ⟨h1, rfl⟩
    have hin : ∀ a, 0 ≤ (rowsScatter N C E wf).start (ix2 e c') idx a + ((rowsScatter N C E wf).window (ix2 e c') a : Nat)
        ∧ (rowsScatter N C E wf).start (ix2 e c') idx a + ((rowsScatter N C E wf).window (ix2 e c') a : Nat)
          < ((⟨2, ![N, C]⟩ : Shape).size a : Nat) := by
      intro a
      match a with
      | ⟨0, _⟩ =>
        show 0 ≤ (rowsScatter N C E wf).start (ix2 e c') idx 0 + ((rowsScatter N C E wf).window (ix2 e c') 0 : Nat)
          ∧ (rowsScatter N C E wf).start (ix2 e c') idx 0 + ((rowsScatter N C E wf).window (ix2 e c') 0 : Nat) < (N : Int)
        rw [hs0, hw0, h1]; omega
      | ⟨1, _⟩ =>
        show 0 ≤ (rowsScatter N C E wf).start (ix2 e c') idx 1 + ((rowsScatter N C E wf).window (ix2 e c') 1 : Nat)
          ∧ (rowsScatter N C E wf).start (ix2 e c') idx 1 + ((rowsScatter N C E wf).window (ix2 e c') 1 : Nat) < (C : Int)
        rw [hs1, hw1]; omega
    rw [dif_pos hin]
    congr 1
    funext a
    refine Fin.ext ?_
    match a with
    | ⟨0, _⟩ =>
      show ((rowsScatter N C E wf).start (ix2 e c') idx 0 + ((rowsScatter N C E wf).window (ix2 e c') 0 : Nat)).toNat = n.val
      rw [hs0, hw0, h1]; omega
    | ⟨1, _⟩ =>
      show ((rowsScatter N C E wf).start (ix2 e c') idx 1 + ((rowsScatter N C E wf).window (ix2 e c') 1 : Nat)).toNat = c'.val
      rw [hs1, hw1]; omega

/-- At the ideal instance the scatter-add of whole rows read at `(n, c)` is the operand's entry plus the sum, over the
    update rows whose row number (read signed, not clamped) is `n`, of the update's entry in column `c`; an update
    row whose number is outside `[0, N)` lands nowhere. -/
theorem scatterAdd_rows_apply {N C E w : Nat} {φ : FTy} (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (c : Fin C) :
    Host.scatterAdd (F := Ideal) (rowsScatter N C E wf) x idx upd (ix2 n c)
      = x (ix2 n c) + ∑ e : Fin E, if (idx (ix2 e (0 : Fin 1))).toInt = (n.val : Int) then upd (ix2 e c) else 0 := by
  change x (ix2 n c) + _ = _
  congr 1
  rw [Finset.sum_filter, sum_idx2]
  refine Finset.sum_congr rfl fun e _ => ?_
  simp only [rowsScatter_resultIdx_eq_some_iff]
  by_cases h : (idx (ix2 e (0 : Fin 1))).toInt = (n.val : Int)
  · simp only [h, true_and, if_true]
    rw [Finset.sum_ite_eq' Finset.univ c (fun c' => upd (ix2 e c'))]
    simp
  · simp only [h, false_and, if_false]
    exact Finset.sum_const_zero

end Cert.LibRows

end
-- ==== Proof.KernelTail.lean ====
/-
  The last host operation of the kernel program: the scatter-add of the messages array into the nodes' linear map.

  Entry (n, d) of the result is the linear map's entry plus the sum over all 606208 padded edge rows whose wrapped
  scatter word is `n` of that row's message at `d`.  The 6208 padding rows carry the word 50000, which is past the
  last node, so they add nowhere; the first 600000 rows carry the edge list's own words, read the node table at
  the same rows as the edges themselves, and their messages are the edges' messages.  So the result is the
  specification function.
-/
import proofs.«172536_j7275674599728_2_alg».proof.Proof.KernelBlocks
import proofs.«172536_j7275674599728_2_alg».proof.Proof.KernelHostOps
import proofs.«172536_j7275674599728_2_alg».proof.Proof.LibScatterRows

noncomputable section

namespace Cert.KernelIdeal.Tail

open Cert.KernelIdeal Cert.KernelIdeal.HostOps Cert.KernelIdeal.Blocks
open Idealize.ShloMosaic Idealize.ShloMosaic.ValueIdx
open scoped BigOperators

/-- The message of padded row `e` below 600000 is the message of edge `e`. -/
theorem msgArr_edge (X : FVec Ideal S50000x128 .f32) (W : FVec Ideal S128x128 .f32) (b : FVec Ideal S128 .f32)
    (Wg : FVec Ideal S256x128 .f32) (bg : FVec Ideal S128 .f32) (EI : IVec S2x600000 32) (e : Fin 600000) (d : Fin 128) :
    msgArr (gathered X (padWith (rowWords EI) 0#32)) (gathered X (padWith (colWords EI) 0#32)) (wgTop Wg) (wgBot Wg) W bg b
        (ix2 (Fin.castLE (by decide : 600000 ≤ 606208) e) d)
      = Cert.Spec.edgeMsg X W b Wg bg (EI (ix2 (0 : Fin 2) e)) (EI (ix2 (1 : Fin 2) e)) d := by
  unfold msgArr Cert.Spec.edgeMsg
  have hr : padWith (rowWords EI) 0#32 (ix1 (Fin.castLE (by decide : 600000 ≤ 606208) e)) = EI (ix2 (0 : Fin 2) e) :=
    (padWith_inside _ _ _ e.isLt).trans (rowWords_apply EI e)
  have hc : padWith (colWords EI) 0#32 (ix1 (Fin.castLE (by decide : 600000 ≤ 606208) e)) = EI (ix2 (1 : Fin 2) e) :=
    (padWith_inside _ _ _ e.isLt).trans (colWords_apply EI e)
  show Cert.Spec.msgRow (fun k => gathered X _ (ix2 (Fin.castLE _ e) k)) (fun k => gathered X _ (ix2 (Fin.castLE _ e) k))
      (fun k d => wgTop Wg (ix2 k d)) (fun k d => wgBot Wg (ix2 k d)) _ _ _ d = _
  simp only [gathered_apply, wgTop_apply, wgBot_apply, hr, hc]

/-- THE RESULT of the kernel program as a function of the argument arrays. -/
theorem scatter_tail (X : FVec Ideal S50000x128 .f32) (W : FVec Ideal S128x128 .f32) (b : FVec Ideal S128 .f32)
    (Wg : FVec Ideal S256x128 .f32) (bg : FVec Ideal S128 .f32) (EI : IVec S2x600000 32) :
    Host.scatterAdd (F := Ideal) scatter_S50000x128_S606208x1_S606208x128_1_0_0_1
        (nodeArr X W b) (wrapCol (padWith (rowWords EI) 50000#32))
        (msgArr (gathered X (padWith (rowWords EI) 0#32)) (gathered X (padWith (colWords EI) 0#32)) (wgTop Wg) (wgBot Wg) W bg b)
      = fun i => Cert.Spec.G X W b Wg bg EI (i 0) (i 1) := by
  funext i
  obtain ⟨n, d, rfl⟩ : ∃ (n : Fin 50000) (d : Fin 128), i = ix2 n d := ⟨i 0, i 1, eq_ix2 i⟩
  refine (Cert.LibRows.scatterAdd_rows_apply Facts₀.scatter_S50000x128_S606208x1_S606208x128_1_0_0_1_wf _ _ _ n d).trans ?_
  show _ = Cert.Spec.G X W b Wg bg EI n d
  unfold Cert.Spec.G
  refine congrArg₂ (· + ·) rfl ?_
  refine Cert.Spec.sum_fin_prefix (by decide : 600000 ≤ 606208) _ _ (fun e => ?_) (fun j hj => ?_)
  · rw [wrapCol_apply, (padWith_inside _ _ _ e.isLt).trans (rowWords_apply EI e), msgArr_edge]
  · rw [wrapCol_apply, padWith_outside _ _ _ hj, Cert.Spec.wrapIx_sentinel]
    exact if_neg (by have := n.isLt; omega)

end Cert.KernelIdeal.Tail

end
-- ==== Proof.KernelValue.lean ====
/-
  The contents of the kernel program's result buffer at the end of the run, as a function of the launch memory.

  The fold of @main's segments is read back: the buffers the message kernel's region reads hold, at its entry, the
  two gathered arrays, the two halves of the gate weights and three arguments; the region leaves the messages array;
  the node kernel's region reads three arguments and leaves the nodes' linear map; the last stretch of host operations
  scatter-adds the messages into the linear map at the wrapped, sentinel-padded first row of the edge list.
-/
import proofs.«172536_j7275674599728_2_alg».proof.Proof.KernelRun
import proofs.«172536_j7275674599728_2_alg».proof.Proof.KernelTail

set_option maxRecDepth 16384

noncomputable section

namespace Cert.KernelIdeal.Whole

open Cert.KernelIdeal Cert.KernelIdeal.Gen Cert.KernelIdeal.HostOps Cert.KernelIdeal.Blocks
open Idealize.ShloMosaic Idealize.ShloMosaic.TcCoe Idealize.ShloMosaic.StableHlo Idealize.ShloMosaic.ValueIdx Idealize.SL.Sem
open Idealize.ShloMosaic.Pipeline (Dat)

variable (m : (ℓ : Loc nD τ sig) → Buf (Elt Ideal) ℓ) (ρ : Dev nD → PrngReg)

/-! ## At the entry of the message kernel's region -/

theorem W7_v6 (c : Dev nD) : W7 m ρ c (Proc.devRef .tc main_v6) = padWith (rowWords (m ((c : Thread nD τ).loc main_arg5))) 50000#32 := by
  dsimp only [W7, W6, W5, W4, W3, W2, W1, hostOps0_6, hostOps0_5, hostOps0_4, hostOps0_3, hostOps0_2, hostOps0_1, hostOps0]
  after_results
  rfl

theorem W7_v14 (c : Dev nD) : W7 m ρ c (Proc.devRef .tc main_v14)
    = gathered (m ((c : Thread nD τ).loc main_arg0)) (padWith (rowWords (m ((c : Thread nD τ).loc main_arg5))) 0#32) := by
  dsimp only [W7, W6, W5, W4, W3, W2, W1, hostOps0_6, hostOps0_5, hostOps0_4, hostOps0_3, hostOps0_2, hostOps0_1, hostOps0]
  after_results_simp
  rfl

theorem W7_v21 (c : Dev nD) : W7 m ρ c (Proc.devRef .tc main_v21)
    = gathered (m ((c : Thread nD τ).loc main_arg0)) (padWith (colWords (m ((c : Thread nD τ).loc main_arg5))) 0#32) := by
  dsimp only [W7, W6, W5, W4, W3, W2, W1, hostOps0_6, hostOps0_5, hostOps0_4, hostOps0_3, hostOps0_2, hostOps0_1, hostOps0]
  after_results_simp
  rfl

theorem W7_v22 (c : Dev nD) : W7 m ρ c (Proc.devRef .tc main_v22) = wgTop (m ((c : Thread nD τ).loc main_arg3)) := by
  dsimp only [W7, W6, W5, W4, W3, W2, W1, hostOps0_6, hostOps0_5, hostOps0_4, hostOps0_3, hostOps0_2, hostOps0_1, hostOps0]
  after_results
  rfl

theorem W7_v23 (c : Dev nD) : W7 m ρ c (Proc.devRef .tc main_v23) = wgBot (m ((c : Thread nD τ).loc main_arg3)) := by
  dsimp only [W7, W6, W5, W4, W3, W2, W1, hostOps0_6, hostOps0_5, hostOps0_4, hostOps0_3, hostOps0_2, hostOps0_1, hostOps0]
  after_results
  rfl

theorem W7_arg0 (c : Dev nD) : W7 m ρ c (Proc.devRef .tc main_arg0) = m ((c : Thread nD τ).loc main_arg0) := by
  dsimp only [W7, W6, W5, W4, W3, W2, W1, hostOps0_6, hostOps0_5, hostOps0_4, hostOps0_3, hostOps0_2, hostOps0_1, hostOps0]
  after_results

theorem W7_arg1 (c : Dev nD) : W7 m ρ c (Proc.devRef .tc main_arg1) = m ((c : Thread nD τ).loc main_arg1) := by
  dsimp only [W7, W6, W5, W4, W3, W2, W1, hostOps0_6, hostOps0_5, hostOps0_4, hostOps0_3, hostOps0_2, hostOps0_1, hostOps0]
  after_results

theorem W7_arg2 (c : Dev nD) : W7 m ρ c (Proc.devRef .tc main_arg2) = m ((c : Thread nD τ).loc main_arg2) := by
  dsimp only [W7, W6, W5, W4, W3, W2, W1, hostOps0_6, hostOps0_5, hostOps0_4, hostOps0_3, hostOps0_2, hostOps0_1, hostOps0]
  after_results

theorem W7_arg4 (c : Dev nD) : W7 m ρ c (Proc.devRef .tc main_arg4) = m ((c : Thread nD τ).loc main_arg4) := by
  dsimp only [W7, W6, W5, W4, W3, W2, W1, hostOps0_6, hostOps0_5, hostOps0_4, hostOps0_3, hostOps0_2, hostOps0_1, hostOps0]
  after_results

/-! ## After the message kernel's region -/

/-- The messages array. -/
theorem W8_v24 (c : Dev nD) : W8 m ρ c (Proc.devRef .tc main_v24)
    = msgArr (gathered (m ((c : Thread nD τ).loc main_arg0)) (padWith (rowWords (m ((c : Thread nD τ).loc main_arg5))) 0#32))
        (gathered (m ((c : Thread nD τ).loc main_arg0)) (padWith (colWords (m ((c : Thread nD τ).loc main_arg5))) 0#32))
        (wgTop (m ((c : Thread nD τ).loc main_arg3))) (wgBot (m ((c : Thread nD τ).loc main_arg3))) (m ((c : Thread nD τ).loc main_arg1)) (m ((c : Thread nD τ).loc main_arg4)) (m ((c : Thread nD τ).loc main_arg2)) := by
  refine (W8_arr m ρ c 7).trans ((final0 (V7 m ρ) c).trans ?_)
  show msgArr (W7 m ρ c (Proc.devRef .tc main_v14)) (W7 m ρ c (Proc.devRef .tc main_v21)) (W7 m ρ c (Proc.devRef .tc main_v22))
    (W7 m ρ c (Proc.devRef .tc main_v23)) (W7 m ρ c (Proc.devRef .tc main_arg1)) (W7 m ρ c (Proc.devRef .tc main_arg4)) (W7 m ρ c (Proc.devRef .tc main_arg2)) = _
  rw [W7_v14, W7_v21, W7_v22, W7_v23, W7_arg1, W7_arg4, W7_arg2]

theorem W8_v6 (c : Dev nD) : W8 m ρ c (Proc.devRef .tc main_v6) = padWith (rowWords (m ((c : Thread nD τ).loc main_arg5))) 50000#32 :=
  (W8_of_ne m ρ c main_v6 (by decide)).trans (W7_v6 m ρ c)

theorem W8_arg0 (c : Dev nD) : W8 m ρ c (Proc.devRef .tc main_arg0) = m ((c : Thread nD τ).loc main_arg0) :=
  (W8_of_ne m ρ c main_arg0 (by decide)).trans (W7_arg0 m ρ c)

theorem W8_arg1 (c : Dev nD) : W8 m ρ c (Proc.devRef .tc main_arg1) = m ((c : Thread nD τ).loc main_arg1) :=
  (W8_arr m ρ c 4).trans ((((dat0 (V7 m ρ) c).arrAt_in 4 rfl _).trans (A_eq0 (V7 m ρ) c 4)).trans (W7_arg1 m ρ c))

theorem W8_arg2 (c : Dev nD) : W8 m ρ c (Proc.devRef .tc main_arg2) = m ((c : Thread nD τ).loc main_arg2) :=
  (W8_arr m ρ c 6).trans ((((dat0 (V7 m ρ) c).arrAt_in 6 rfl _).trans (A_eq0 (V7 m ρ) c 6)).trans (W7_arg2 m ρ c))

/-! ## After the node kernel's region -/

/-- The nodes' linear map. -/
theorem W9_v25 (c : Dev nD) : W9 m ρ c (Proc.devRef .tc main_v25)
    = nodeArr (m ((c : Thread nD τ).loc main_arg0)) (m ((c : Thread nD τ).loc main_arg1)) (m ((c : Thread nD τ).loc main_arg2)) := by
  refine (W9_arr m ρ c 3).trans ((final1 (V8 m ρ) c).trans ?_)
  show nodeArr (W8 m ρ c (Proc.devRef .tc main_arg0)) (W8 m ρ c (Proc.devRef .tc main_arg1)) (W8 m ρ c (Proc.devRef .tc main_arg2)) = _
  rw [W8_arg0, W8_arg1, W8_arg2]

theorem W9_v24 (c : Dev nD) : W9 m ρ c (Proc.devRef .tc main_v24) = W8 m ρ c (Proc.devRef .tc main_v24) :=
  W9_of_ne m ρ c main_v24 (by decide)

theorem W9_v6 (c : Dev nD) : W9 m ρ c (Proc.devRef .tc main_v6) = padWith (rowWords (m ((c : Thread nD τ).loc main_arg5))) 50000#32 :=
  (W9_of_ne m ρ c main_v6 (by decide)).trans (W8_v6 m ρ c)

/-! ## The result -/

/-- The last stretch of host operations, on the contents the node kernel's region leaves. -/
theorem W10_v32 (c : Dev nD) : W10 m ρ c (Proc.devRef .tc main_v32)
    = Host.scatterAdd (F := Ideal) (φ := .f32) scatter_S50000x128_S606208x1_S606208x128_1_0_0_1 (W9 m ρ c (Proc.devRef .tc main_v25))
        (wrapCol (W9 m ρ c (Proc.devRef .tc main_v6))) (W9 m ρ c (Proc.devRef .tc main_v24)) := by
  dsimp only [W10, hostOps2]
  after_results
  rfl

/-- THE RESULT BUFFER ends at the specification function of the launch memory's argument arrays. -/
theorem result_is_G (c : Dev nD) : W10 m ρ c (Proc.devRef .tc main_v32)
    = fun i => Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1) := by
  rw [W10_v32, W9_v25, W9_v6, W9_v24, W8_v24]
  exact Cert.KernelIdeal.Tail.scatter_tail _ _ _ _ _ _

end Cert.KernelIdeal.Whole

end
-- ==== Proof.RefIsG.lean ====
/-
  The reference program's result, entry by entry, is the specification function: each host operation is read at an
  index down to the argument arrays.
-/
import proofs.«172536_j7275674599728_2_alg».proof.Proof.Gen.ReferenceIdeal.Read
import proofs.«172536_j7275674599728_2_alg».proof.Proof.Spec
import proofs.«172536_j7275674599728_2_alg».proof.Proof.LibScatterRows
import proofs.«172536_j7275674599728_2_alg».proof.Proof.LibGatherRows
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.ReferenceIdeal.RefValue

open Cert.ReferenceIdeal Cert.ReferenceIdeal.Read Cert.ReferenceIdeal.Gen Idealize.ShloMosaic Idealize.ShloMosaic.ValueIdx
open scoped BigOperators

/-! ## The index arrays -/

section Indices
variable (x5 : (⟨S2x600000, .i32⟩ : BufTy).Contents (Elt Ideal)) (e : Fin 600000)

/-- Entry `e` of the flattened row 0 of the edge list is the edge list at `(0, e)`. -/
theorem v1_at : val_main_v1 (F := Ideal) x5 (ix1 e) = x5 (ix2 (0 : Fin 2) e) := by
  rw [val_main_v1_apply, val_main_v0_apply]
  congr 1
  funext a; refine Fin.ext ?_
  match a with
  | ⟨0, _⟩ => rfl
  | ⟨1, _⟩ => exact Nat.mod_eq_of_lt e.isLt

/-- Entry `e` of the flattened row 1 of the edge list is the edge list at `(1, e)`. -/
theorem v3_at : val_main_v3 (F := Ideal) x5 (ix1 e) = x5 (ix2 (1 : Fin 2) e) := by
  rw [val_main_v3_apply, val_main_v2_apply]
  congr 1
  funext a; refine Fin.ext ?_
  match a with
  | ⟨0, _⟩ => rfl
  | ⟨1, _⟩ => exact Nat.mod_eq_of_lt e.isLt

/-- The first gather's start index of row `e` is the wrapped word `(0, e)` of the edge list. -/
theorem v9_at : val_main_v9 (F := Ideal) x5 (ix2 e (0 : Fin 1)) = Spec.wrapIx (x5 (ix2 (0 : Fin 2) e)) := by
  rw [val_main_v9_apply]
  have hi : idx_main_v9 (ix2 e (0 : Fin 1)) = ix1 e := by
    funext a; refine Fin.ext ?_
    match a with
    | ⟨0, _⟩ => rfl
  rw [hi, val_main_v8_apply, val_main_v5_apply, val_main_v7_apply, val_main_v4_apply, val_main_v6_apply,
    val_main_c_apply, val_main_c_0_apply, v1_at]
  rfl

/-- The second gather's start index of row `e` is the wrapped word `(1, e)` of the edge list. -/
theorem v16_at : val_main_v16 (F := Ideal) x5 (ix2 e (0 : Fin 1)) = Spec.wrapIx (x5 (ix2 (1 : Fin 2) e)) := by
  rw [val_main_v16_apply]
  have hi : idx_main_v16 (ix2 e (0 : Fin 1)) = ix1 e := by
    funext a; refine Fin.ext ?_
    match a with
    | ⟨0, _⟩ => rfl
  rw [hi, val_main_v15_apply, val_main_v12_apply, val_main_v14_apply, val_main_v11_apply, val_main_v13_apply,
    val_main_c_1_apply, val_main_c_2_apply, v3_at]
  rfl

/-- The scatter's index of update row `e` is the wrapped word `(0, e)` of the edge list. -/
theorem v40_at : val_main_v40 (F := Ideal) x5 (ix2 e (0 : Fin 1)) = Spec.wrapIx (x5 (ix2 (0 : Fin 2) e)) := by
  rw [val_main_v40_apply]
  have hi : idx_main_v40 (ix2 e (0 : Fin 1)) = ix1 e := by
    funext a; refine Fin.ext ?_
    match a with
    | ⟨0, _⟩ => rfl
  rw [hi, val_main_v39_apply, val_main_v36_apply, val_main_v38_apply, val_main_v35_apply, val_main_v37_apply,
    val_main_c_5_apply, val_main_c_6_apply, v1_at]
  rfl

end Indices

/-! ## The two gathers and their concatenation -/

section Gathers
variable (x0 : (⟨S50000x128, .f32⟩ : BufTy).Contents (Elt Ideal)) (x5 : (⟨S2x600000, .i32⟩ : BufTy).Contents (Elt Ideal))
  (e : Fin 600000) (k : Fin 128)

/-- The first gather at `(e, k)` is the table at column `k` of the row the word `(0, e)` reads. -/
theorem v10_at : val_main_v10 (F := Ideal) x0 x5 (ix2 e k) = x0 (ix2 (Spec.rowAt (x5 (ix2 (0 : Fin 2) e))) k) := by
  unfold val_main_v10
  refine (Cert.LibRows.gather_rows_apply (N := 50000) (C := 128) (E := 600000) (by decide)
    Facts₀.gather_S50000x128_S600000x1_S600000x128_1_0_n_n_0_1_1128_wf x0 (val_main_v9 (F := Ideal) x5) e k).trans ?_
  refine congrArg (fun r : Fin 50000 => x0 (ix2 r k)) (Fin.ext ?_)
  show min (val_main_v9 (F := Ideal) x5 (ix2 e (0 : Fin 1))).toInt.toNat (50000 - 1) = (Spec.rowAt (x5 (ix2 (0 : Fin 2) e))).val
  rw [v9_at]
  rfl

/-- The second gather at `(e, k)` is the table at column `k` of the row the word `(1, e)` reads. -/
theorem v17_at : val_main_v17 (F := Ideal) x0 x5 (ix2 e k) = x0 (ix2 (Spec.rowAt (x5 (ix2 (1 : Fin 2) e))) k) := by
  unfold val_main_v17
  refine (Cert.LibRows.gather_rows_apply (N := 50000) (C := 128) (E := 600000) (by decide)
    Facts₀.gather_S50000x128_S600000x1_S600000x128_1_0_n_n_0_1_1128_wf x0 (val_main_v16 (F := Ideal) x5) e k).trans ?_
  refine congrArg (fun r : Fin 50000 => x0 (ix2 r k)) (Fin.ext ?_)
  show min (val_main_v16 (F := Ideal) x5 (ix2 e (0 : Fin 1))).toInt.toNat (50000 - 1) = (Spec.rowAt (x5 (ix2 (1 : Fin 2) e))).val
  rw [v16_at]
  rfl

/-- The concatenation at a column in its first half reads the first gather. -/
theorem v18_left : val_main_v18 (F := Ideal) x0 x5 (ix2 e (⟨0 + k.val, by omega⟩ : Fin 256))
    = val_main_v10 (F := Ideal) x0 x5 (ix2 e k) := by
  unfold val_main_v18
  exact concatenate_pair_apply_left (t := S600000x256) (s₁ := S600000x128) (s₂ := S600000x128) (1 : Fin 2) _ _ _
    (ix2 e (⟨0 + k.val, by omega⟩ : Fin 256)) rfl (ix2 e k) (fun b => by
      match b with
      | ⟨0, _⟩ => rfl
      | ⟨1, _⟩ => show k.val = 0 + k.val; omega)

/-- The concatenation at a column in its second half reads the second gather. -/
theorem v18_right : val_main_v18 (F := Ideal) x0 x5 (ix2 e (⟨128 + k.val, by omega⟩ : Fin 256))
    = val_main_v17 (F := Ideal) x0 x5 (ix2 e k) := by
  unfold val_main_v18
  exact concatenate_pair_apply_right (t := S600000x256) (s₁ := S600000x128) (s₂ := S600000x128) (1 : Fin 2) _ _ _
    (ix2 e (⟨128 + k.val, by omega⟩ : Fin 256)) rfl rfl (ix2 e k) (fun b hb => by
      match b with
      | ⟨0, _⟩ => rfl
      | ⟨1, _⟩ => exact absurd rfl hb) (by show k.val + 128 = 128 + k.val; omega)

end Gathers

/-! ## Contraction and bias indices by coordinates -/

section Coordinates
variable (e : Fin 600000) (n : Fin 50000) (d : Fin 128)

/-- The gate contraction's left index at position `k` is `(e, k)`. -/
theorem lidx19_eq (k : Fin 256) : lidx_main_v19 (ix2 e d) k = ix2 e k := by
  funext a; refine Fin.ext ?_
  match a with
  | ⟨0, _⟩ => rfl
  | ⟨1, _⟩ => rfl
/-- The gate contraction's right index at position `k` is `(k, d)`. -/
theorem ridx19_eq (k : Fin 256) : ridx_main_v19 (ix2 e d) k = ix2 k d := by
  funext a; refine Fin.ext ?_
  match a with
  | ⟨0, _⟩ => rfl
  | ⟨1, _⟩ => rfl
/-- The edge contraction's left index at position `k` is `(e, k)`. -/
theorem lidx29_eq (k : Fin 128) : lidx_main_v29 (ix2 e d) k = ix2 e k := by
  funext a; refine Fin.ext ?_
  match a with
  | ⟨0, _⟩ => rfl
  | ⟨1, _⟩ => rfl
/-- The edge contraction's right index at position `k` is `(k, d)`. -/
theorem ridx29_eq (k : Fin 128) : ridx_main_v29 (ix2 e d) k = ix2 k d := by
  funext a; refine Fin.ext ?_
  match a with
  | ⟨0, _⟩ => rfl
  | ⟨1, _⟩ => rfl
/-- The node contraction's left index at position `k` is `(n, k)`. -/
theorem lidx42_eq (k : Fin 128) : lidx_main_v42 (ix2 n d) k = ix2 n k := by
  funext a; refine Fin.ext ?_
  match a with
  | ⟨0, _⟩ => rfl
  | ⟨1, _⟩ => rfl
/-- The node contraction's right index at position `k` is `(k, d)`. -/
theorem ridx42_eq (k : Fin 128) : ridx_main_v42 (ix2 n d) k = ix2 k d := by
  funext a; refine Fin.ext ?_
  match a with
  | ⟨0, _⟩ => rfl
  | ⟨1, _⟩ => rfl

/-- The gate bias broadcast over the edges reads the bias at the column. -/
theorem v21_at (x4 : (⟨S128, .f32⟩ : BufTy).Contents (Elt Ideal)) : val_main_v21 (F := Ideal) x4 (ix2 e d) = x4 (ix1 d) := by
  rw [val_main_v21_apply, val_main_v20_apply]
  congr 1
  funext a; refine Fin.ext ?_
  match a with
  | ⟨0, _⟩ => rfl
/-- The bias broadcast over the edges reads the bias at the column. -/
theorem v31_at (x2 : (⟨S128, .f32⟩ : BufTy).Contents (Elt Ideal)) : val_main_v31 (F := Ideal) x2 (ix2 e d) = x2 (ix1 d) := by
  rw [val_main_v31_apply, val_main_v30_apply]
  congr 1
  funext a; refine Fin.ext ?_
  match a with
  | ⟨0, _⟩ => rfl
/-- The bias broadcast over the nodes reads the bias at the column. -/
theorem v44_at (x2 : (⟨S128, .f32⟩ : BufTy).Contents (Elt Ideal)) : val_main_v44 (F := Ideal) x2 (ix2 n d) = x2 (ix1 d) := by
  rw [val_main_v44_apply, val_main_v43_apply]
  congr 1
  funext a; refine Fin.ext ?_
  match a with
  | ⟨0, _⟩ => rfl

end Coordinates

/-! ## The message of one edge -/

section Message
variable (x0 : (⟨S50000x128, .f32⟩ : BufTy).Contents (Elt Ideal)) (x1 : (⟨S128x128, .f32⟩ : BufTy).Contents (Elt Ideal))
  (x2 : (⟨S128, .f32⟩ : BufTy).Contents (Elt Ideal)) (x3 : (⟨S256x128, .f32⟩ : BufTy).Contents (Elt Ideal))
  (x4 : (⟨S128, .f32⟩ : BufTy).Contents (Elt Ideal)) (x5 : (⟨S2x600000, .i32⟩ : BufTy).Contents (Elt Ideal))
  (e : Fin 600000) (d : Fin 128)

/-- The gate logit at `(e, d)`: the first row read against the gate weights' upper half, plus the second row read
    against their lower half, plus the gate bias. -/
theorem v22_at : val_main_v22 (F := Ideal) x0 x3 x4 x5 (ix2 e d)
    = ((∑ k : Fin 128, x0 (ix2 (Spec.rowAt (x5 (ix2 (0 : Fin 2) e))) k) * x3 (ix2 (⟨0 + k.val, by omega⟩ : Fin 256) d))
        + (∑ k : Fin 128, x0 (ix2 (Spec.rowAt (x5 (ix2 (1 : Fin 2) e))) k) * x3 (ix2 (⟨128 + k.val, by omega⟩ : Fin 256) d)))
      + x4 (ix1 d) := by
  rw [val_main_v22_apply]
  show val_main_v19 (F := Ideal) x0 x3 x5 (ix2 e d) + val_main_v21 (F := Ideal) x4 (ix2 e d) = _
  rw [v21_at, val_main_v19_apply, Spec.sum_256_split]
  congr 2
  · refine Finset.sum_congr rfl fun k _ => ?_
    rw [lidx19_eq, ridx19_eq, v18_left, v10_at]
  · refine Finset.sum_congr rfl fun k _ => ?_
    rw [lidx19_eq, ridx19_eq, v18_right, v17_at]

/-- The gate at `(e, d)` is the logistic function of the gate logit. -/
theorem v28_at : val_main_v28 (F := Ideal) x0 x3 x4 x5 (ix2 e d)
    = Ideal.logistic (val_main_v22 (F := Ideal) x0 x3 x4 x5 (ix2 e d)) := by
  rw [val_main_v28_apply, val_main_v27_apply, val_main_cst_3_apply, val_main_v26_apply, val_main_v25_apply,
    val_main_cst_apply, val_main_v24_apply, val_main_v23_apply]
  simp only [Ideal.ofBits_def, Ideal.ofBits_one_f32]
  rfl

/-- The linear map of the second row read, at `(e, d)`. -/
theorem v32_at : val_main_v32 (F := Ideal) x0 x1 x2 x5 (ix2 e d)
    = Spec.lin (fun k => x0 (ix2 (Spec.rowAt (x5 (ix2 (1 : Fin 2) e))) k)) (fun k d => x1 (ix2 k d)) (fun d => x2 (ix1 d)) d := by
  rw [val_main_v32_apply]
  show val_main_v29 (F := Ideal) x0 x1 x5 (ix2 e d) + val_main_v31 (F := Ideal) x2 (ix2 e d) = _
  rw [v31_at, val_main_v29_apply]
  unfold Spec.lin
  congr 1
  refine Finset.sum_congr rfl fun k _ => ?_
  rw [lidx29_eq, ridx29_eq, v17_at]

/-- The update at `(e, d)` is the message of edge `e` at feature `d`. -/
theorem v33_at : val_main_v33 (F := Ideal) x0 x1 x2 x3 x4 x5 (ix2 e d)
    = Spec.edgeMsg x0 x1 x2 x3 x4 (x5 (ix2 (0 : Fin 2) e)) (x5 (ix2 (1 : Fin 2) e)) d := by
  rw [val_main_v33_apply]
  show val_main_v28 (F := Ideal) x0 x3 x4 x5 (ix2 e d) * val_main_v32 (F := Ideal) x0 x1 x2 x5 (ix2 e d) = _
  rw [v28_at, v22_at, v32_at]
  rfl

end Message

/-! ## The node term, the scatter, and the result -/

section Result
variable (x0 : (⟨S50000x128, .f32⟩ : BufTy).Contents (Elt Ideal)) (x1 : (⟨S128x128, .f32⟩ : BufTy).Contents (Elt Ideal))
  (x2 : (⟨S128, .f32⟩ : BufTy).Contents (Elt Ideal)) (x3 : (⟨S256x128, .f32⟩ : BufTy).Contents (Elt Ideal))
  (x4 : (⟨S128, .f32⟩ : BufTy).Contents (Elt Ideal)) (x5 : (⟨S2x600000, .i32⟩ : BufTy).Contents (Elt Ideal))
  (n : Fin 50000) (d : Fin 128)

/-- The node's own linear map at `(n, d)`. -/
theorem v45_at : val_main_v45 (F := Ideal) x0 x1 x2 (ix2 n d) = Spec.nodeLin x0 x1 x2 n d := by
  rw [val_main_v45_apply]
  show val_main_v42 (F := Ideal) x0 x1 (ix2 n d) + val_main_v44 (F := Ideal) x2 (ix2 n d) = _
  rw [v44_at, val_main_v42_apply]
  unfold Spec.nodeLin Spec.lin
  congr 1
  refine Finset.sum_congr rfl fun k _ => ?_
  rw [lidx42_eq, ridx42_eq]

/-- The scatter-add into zeros at `(n, d)` is the sum of the messages of the edges that land on `n`. -/
theorem v41_at : val_main_v41 (F := Ideal) x0 x1 x2 x3 x4 x5 (ix2 n d)
    = ∑ e : Fin 600000, if (Spec.wrapIx (x5 (ix2 (0 : Fin 2) e))).toInt = (n.val : Int)
        then Spec.edgeMsg x0 x1 x2 x3 x4 (x5 (ix2 (0 : Fin 2) e)) (x5 (ix2 (1 : Fin 2) e)) d else 0 := by
  unfold val_main_v41
  refine (Cert.LibRows.scatterAdd_rows_apply (N := 50000) (C := 128) (E := 600000)
    Facts₀.scatter_S50000x128_S600000x1_S600000x128_1_0_0_1_wf (val_main_v34 (F := Ideal)) (val_main_v40 (F := Ideal) x5)
    (val_main_v33 (F := Ideal) x0 x1 x2 x3 x4 x5) n d).trans ?_
  rw [val_main_v34_apply, val_main_cst_4_apply]
  simp only [Ideal.ofBits_def, Ideal.ofBits_zero_f32, zero_add]
  refine Finset.sum_congr rfl fun e _ => ?_
  rw [v40_at, v33_at]

end Result

/-- The reference program's result is the specification function, entry by entry. -/
theorem ref_is_G (x0 : (⟨S50000x128, .f32⟩ : BufTy).Contents (Elt Ideal)) (x1 : (⟨S128x128, .f32⟩ : BufTy).Contents (Elt Ideal))
    (x2 : (⟨S128, .f32⟩ : BufTy).Contents (Elt Ideal)) (x3 : (⟨S256x128, .f32⟩ : BufTy).Contents (Elt Ideal))
    (x4 : (⟨S128, .f32⟩ : BufTy).Contents (Elt Ideal)) (x5 : (⟨S2x600000, .i32⟩ : BufTy).Contents (Elt Ideal)) :
    Cert.ReferenceIdeal.Read.val_main_v46 (F := Ideal) x0 x1 x2 x3 x4 x5 = fun i => Cert.Spec.G x0 x1 x2 x3 x4 x5 (i 0) (i 1) := by
  funext i
  obtain ⟨n, d, rfl⟩ : ∃ (n : Fin 50000) (d : Fin 128), i = ix2 n d := ⟨i 0, i 1, eq_ix2 i⟩
  rw [val_main_v46_apply]
  show val_main_v41 (F := Ideal) x0 x1 x2 x3 x4 x5 (ix2 n d) + val_main_v45 (F := Ideal) x0 x1 x2 (ix2 n d)
    = Cert.Spec.G x0 x1 x2 x3 x4 x5 n d
  rw [v41_at, v45_at, add_comm]
  rfl

end Cert.ReferenceIdeal.RefValue

end
-- ==== Proof.lean ====
/-
  The proof of `Cert.Claim`: the three frames, the (empty) ledger of the idealization, and the algebraic claim.

  Both idealized programs end with their result buffer at ONE function of the six argument arrays, `Cert.Spec.G`:
  entry (n, d) is the node's linear map x[n] · W + b at d plus the sum, over the edges that land on node n, of
  sigmoid(x[row] · Wg_top + x[col] · Wg_bottom + bg) · (x[col] · W + b) at d.  The kernel program gets there through a
  gather of the node table at the zero-padded edge rows, a message kernel over 74 blocks of 8192 padded edges, a node
  kernel over 10 blocks of 5000 nodes, and a scatter-add of the padded messages into the node kernel's result at the
  edge rows padded with a word past the last node (`Cert.KernelIdeal.Whole.result_is_G`); the reference through a
  scatter-add of the 600000 messages into zeros, added to the linear map (`Cert.ReferenceIdeal.RefValue.ref_is_G`).
  Over the extended reals the two agree without any use of finiteness: a product with a zero accumulator is the plain
  contraction, a contraction over 256 positions is the sum of its two halves, the padding rows add nowhere, and
  addition is commutative and associative.
-/
import proofs.«172536_j7275674599728_2_alg».proof.Defs
import proofs.«172536_j7275674599728_2_alg».proof.Proof.Gen.Kernel
import proofs.«172536_j7275674599728_2_alg».proof.Proof.Gen.Kernel.Skeleton
import proofs.«172536_j7275674599728_2_alg».proof.Proof.Gen.Kernel.Launch
import proofs.«172536_j7275674599728_2_alg».proof.Proof.Gen.Kernel.Points
import proofs.«172536_j7275674599728_2_alg».proof.Proof.Gen.Kernel.Frame
import proofs.«172536_j7275674599728_2_alg».proof.Proof.Gen.KernelIdeal
import proofs.«172536_j7275674599728_2_alg».proof.Proof.Gen.KernelIdeal.Skeleton
import proofs.«172536_j7275674599728_2_alg».proof.Proof.Gen.KernelIdeal.Launch
import proofs.«172536_j7275674599728_2_alg».proof.Proof.Gen.KernelIdeal.Points
import proofs.«172536_j7275674599728_2_alg».proof.Proof.Gen.KernelIdeal.Frame
import proofs.«172536_j7275674599728_2_alg».proof.Proof.Gen.ReferenceIdeal
import proofs.«172536_j7275674599728_2_alg».proof.Proof.Gen.ReferenceIdeal.Run
import proofs.«172536_j7275674599728_2_alg».proof.Proof.Gen.ReferenceIdeal.Read
import proofs.«172536_j7275674599728_2_alg».proof.Proof.Gen.Pre_finite_inputs
import proofs.«172536_j7275674599728_2_alg».proof.Proof.KernelRun
import proofs.«172536_j7275674599728_2_alg».proof.Proof.KernelValue
import proofs.«172536_j7275674599728_2_alg».proof.Proof.RefIsG
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end at the specification function of arguments that agree. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.Whole.result_is_G m ρ c), (h c).2⟩)
    (Cert.KernelIdeal.Hand.run_result (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v46_eq, Cert.ReferenceIdeal.RefValue.ref_is_G, a0, a1, a2, a3, a4, a5]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
